-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x2048 : Shape := ⟨3, ![8, 16, 2048]⟩
abbrev S1x1 : Shape := ⟨2, ![1, 1]⟩
abbrev S1x1x1 : Shape := ⟨3, ![1, 1, 1]⟩
abbrev S_ : Shape := ⟨0, ![]⟩

class Facts : Prop where
  bcast_S_S8x16x2048 : S_.BroadcastsInDim S8x16x2048 (![] : Fin 0 → Fin S8x16x2048.rank)
  reducesTo_S8x16x2048_S_d0_1_2 : S8x16x2048.ReducesTo [0, 1, 2] S_
  h_S_ : 0 < S_.numel
  bcast_S_S1x1 : S_.BroadcastsInDim S1x1 (![] : Fin 0 → Fin S1x1.rank)
  reducesTo_S1x1_S_d0_1 : S1x1.ReducesTo [0, 1] S_
  bcast_S_S1x1x1 : S_.BroadcastsInDim S1x1x1 (![] : Fin 0 → Fin S1x1x1.rank)
  reducesTo_S1x1x1_S_d0_1_2 : S1x1x1.ReducesTo [0, 1, 2] S_

variable [Facts]

def fn {F : FTy → Type} [FloatOps F] (main_arg0 : FVec F S8x16x2048 .f32) (main_arg1 : FVec F S1x1 .f32) (main_arg2 : FVec F S1x1x1 .f32) : IVec S_ 1 :=
  let main_v0 : FVec F S8x16x2048 .f32 := Host.absf main_arg0
  let main_cst : FVec F S_ .f32 := constant S_ .f32 0x7F800000#32
  let main_v1 : FVec F S8x16x2048 .f32 := broadcastInDim S8x16x2048 ![] bcast_S_S8x16x2048 main_cst
  let main_v2 : IVec S8x16x2048 1 := cmpf .olt main_v0 main_v1
  let main_c : IVec S_ 1 := constantI S_ 1 1#1
  let main_v3 : IVec S_ 1 := (fun x v => Host.reduce IntOp.andi x v reducesTo_S8x16x2048_S_d0_1_2 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1x1x1 .f32 := Host.absf main_arg2
  let main_cst_2 : FVec F S_ .f32 := constant S_ .f32 0x7F800000#32
  let main_v10 : FVec F S1x1x1 .f32 := broadcastInDim S1x1x1 ![] bcast_S_S1x1x1 main_cst_2
  let main_v11 : IVec S1x1x1 1 := cmpf .olt main_v9 main_v10
  let main_c_3 : IVec S_ 1 := constantI S_ 1 1#1
  let main_v12 : IVec S_ 1 := (fun x v => Host.reduce IntOp.andi x v reducesTo_S1x1x1_S_d0_1_2 h_S_) main_v11 main_c_3
  let main_v13 : IVec S_ 1 := andi main_v8 main_v12
  main_v13
-- ==== Kernel.lean ====
abbrev S8x16x2048 : Shape := ⟨3, ![8, 16, 2048]⟩
abbrev S1x1 : Shape := ⟨2, ![1, 1]⟩
abbrev S1x1x1 : Shape := ⟨3, ![1, 1, 1]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩
abbrev S8x2048x2048 : Shape := ⟨3, ![8, 2048, 2048]⟩
abbrev S1x16x512 : Shape := ⟨3, ![1, 16, 512]⟩
abbrev S1x16x2048 : Shape := ⟨3, ![1, 16, 2048]⟩
abbrev S1x512x1 : Shape := ⟨3, ![1, 512, 1]⟩
abbrev S1x1x2048 : Shape := ⟨3, ![1, 1, 2048]⟩
abbrev S1x512x2048 : Shape := ⟨3, ![1, 512, 2048]⟩
abbrev S16x512 : Shape := ⟨2, ![16, 512]⟩
abbrev S16x2048 : Shape := ⟨2, ![16, 2048]⟩
abbrev S512x2048 : Shape := ⟨2, ![512, 2048]⟩
abbrev S512x1 : Shape := ⟨2, ![512, 1]⟩
abbrev S1x2048 : Shape := ⟨2, ![1, 2048]⟩

abbrev nBuf : Space → Nat
  | .hbm => 28
  | .vmem => 14
  | .smem => 0
  | _ => 0

abbrev bufTy : (tb : Table) → Fin (tcTables nBuf tb) → BufTy
  | .hbm, ⟨0, _⟩ => ⟨S8x16x2048, .f32⟩
  | .hbm, ⟨1, _⟩ => ⟨S1x1, .f32⟩
  | .hbm, ⟨2, _⟩ => ⟨S1x1x1, .f32⟩
  | .hbm, ⟨3, _⟩ => ⟨S8x16x2048, .f32⟩
  | .hbm, ⟨4, _⟩ => ⟨S_, .f32⟩
  | .hbm, ⟨5, _⟩ => ⟨S8x2048, .f32⟩
  | .hbm, ⟨6, _⟩ => ⟨S8x1x2048, .f32⟩
  | .hbm, ⟨7, _⟩ => ⟨S8x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S_, .f32⟩
  | .hbm, ⟨21, _⟩ => ⟨S8x16x2048, .f32⟩
  | .hbm, ⟨22, _⟩ => ⟨S8x16x2048, .f32⟩
  | .hbm, ⟨23, _⟩ => ⟨S8x2048x1, .f32⟩
  | .hbm, ⟨24, _⟩ => ⟨S8x1x2048, .f32⟩
  | .hbm, ⟨25, _⟩ => ⟨S8x2048x1, .f32⟩
  | .hbm, ⟨26, _⟩ => ⟨S8x1x2048, .f32⟩
  | .hbm, ⟨27, _⟩ => ⟨S8x2048x2048, .f32⟩
  | .local _ .vmem, ⟨0, _⟩ => ⟨S1x16x512, .f32⟩
  | .local _ .vmem, ⟨1, _⟩ => ⟨S1x16x512, .f32⟩
  | .local _ .vmem, ⟨2, _⟩ => ⟨S1x16x2048, .f32⟩
  | .local _ .vmem, ⟨3, _⟩ => ⟨S1x16x2048, .f32⟩
  | .local _ .vmem, ⟨4, _⟩ => ⟨S1x512x1, .f32⟩
  | .local _ .vmem, ⟨5, _⟩ => ⟨S1x512x1, .f32⟩
  | .local _ .vmem, ⟨6, _⟩ => ⟨S1x1x2048, .f32⟩
  | .local _ .vmem, ⟨7, _⟩ => ⟨S1x1x2048, .f32⟩
  | .local _ .vmem, ⟨8, _⟩ => ⟨S1x512x1, .f32⟩
  | .local _ .vmem, ⟨9, _⟩ => ⟨S1x512x1, .f32⟩
  | .local _ .vmem, ⟨10, _⟩ => ⟨S1x1x2048, .f32⟩
  | .local _ .vmem, ⟨11, _⟩ => ⟨S1x1x2048, .f32⟩
  | .local _ .vmem, ⟨12, _⟩ => ⟨S1x512x2048, .f32⟩
  | .local _ .vmem, ⟨13, _⟩ => ⟨S1x512x2048, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  reducesTo_S8x16x2048_S8x2048_d1 : S8x16x2048.ReducesTo [1] S8x2048
  h_S_ : 0 < S_.numel
  slices_S8x16x2048_S8x1x2048_0_4_0 : S8x16x2048.Slices ![0, 4, 0] S8x1x2048
  shapeCasts_S8x1x2048_S8x2048 : S8x1x2048.ShapeCasts S8x2048
  shapeCasts_S1x1_S_ : S1x1.ShapeCasts S_
  bcast_S_S8x2048 : S_.BroadcastsInDim S8x2048 (![] : Fin 0 → Fin S8x2048.rank)
  shapeCasts_S1x1x1_S_ : S1x1x1.ShapeCasts S_
  bcast_S_S8x16x2048 : S_.BroadcastsInDim S8x16x2048 (![] : Fin 0 → Fin S8x16x2048.rank)
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S512x1_S512x2048 : S512x1.Broadcasts S512x2048
  broadcasts_S1x2048_S512x2048 : S1x2048.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  dot_S16x512_S16x2048_S512x2048_0_0_1_1_n_n_wf : DotDims.WF S16x512 S16x2048 S512x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S8x16x2048.size a
  hwx0_0 : ∀ i : grid0.Coords, EltTy.bits .f32 = 32 ∨ (Rect.block (s := S8x16x2048) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x2048.size a ≤ S8x16x2048.size a
  hwx0_1 : ∀ i : grid0.Coords, EltTy.bits .f32 = 32 ∨ (Rect.block (s := S8x16x2048) S1x16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x2048x1.size a
  hwx0_2 : ∀ i : grid0.Coords, EltTy.bits .f32 = 32 ∨ (Rect.block (s := S8x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x2048.size a
  hwx0_3 : ∀ i : grid0.Coords, EltTy.bits .f32 = 32 ∨ (Rect.block (s := S8x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1.size a ≤ S8x2048x1.size a
  hwx0_4 : ∀ i : grid0.Coords, EltTy.bits .f32 = 32 ∨ (Rect.block (s := S8x2048x1) S1x512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S8x1x2048.size a
  hwx0_5 : ∀ i : grid0.Coords, EltTy.bits .f32 = 32 ∨ (Rect.block (s := S8x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2048.size a ≤ S8x2048x2048.size a
  hwx0_6 : ∀ i : grid0.Coords, EltTy.bits .f32 = 32 ∨ (Rect.block (s := S8x2048x2048) S1x512x2048.size (cc0_transform_6 i) (hinb0_6 i)).WholeWords (EltTy.packing .f32)

variable [Facts₀]

def dot_S16x512_S16x2048_S512x2048_0_0_1_1_n_n : DotDims S16x512 S16x2048 S512x2048 where
  lhsContracting := [0]
  rhsContracting := [0]
  lhsNonContracting := [1]
  rhsNonContracting := [1]
  lhsBatch := []
  rhsBatch := []
  wf := dot_S16x512_S16x2048_S512x2048_0_0_1_1_n_n_wf

abbrev win0_0 : Pipeline.Window sig grid0 :=
  Pipeline.Window.ofSpec (Memref.whole main_v16) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x16x2048 : Shape := ⟨3, ![8, 16, 2048]⟩
abbrev S1x1 : Shape := ⟨2, ![1, 1]⟩
abbrev S1x1x1 : Shape := ⟨3, ![1, 1, 1]⟩
abbrev S_ : Shape := ⟨0, ![]⟩
abbrev S8x2048 : Shape := ⟨2, ![8, 2048]⟩
abbrev S8x2048x2048 : Shape := ⟨3, ![8, 2048, 2048]⟩
abbrev S8x2048x1 : Shape := ⟨3, ![8, 2048, 1]⟩
abbrev S8x1x2048 : Shape := ⟨3, ![8, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S1x1, .f32⟩
  | .hbm, ⟨2, _⟩ => ⟨S1x1x1, .f32⟩
  | .hbm, ⟨3, _⟩ => ⟨S8x16x2048, .f32⟩
  | .hbm, ⟨4, _⟩ => ⟨S_, .f32⟩
  | .hbm, ⟨5, _⟩ => ⟨S8x2048, .f32⟩
  | .hbm, ⟨6, _⟩ => ⟨S8x2048x2048, .f32⟩
  | .hbm, ⟨7, _⟩ => ⟨S8x2048x1, .f32⟩
  | .hbm, ⟨8, _⟩ => ⟨S8x1x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]

class Facts₀ : Prop where
  reducesTo_S8x16x2048_S8x2048_d1 : S8x16x2048.ReducesTo [1] S8x2048
  h_S_ : 0 < S_.numel
  bcast_S8x2048_S8x2048x1_0_1 : S8x2048.BroadcastsInDim S8x2048x1 (![0, 1] : Fin 2 → Fin S8x2048x1.rank)
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  slices_S8x16x2048_S8x1x2048_0_4_0 : S8x16x2048.Slices ![0, 4, 0] S8x1x2048
  shapeCasts_S8x1x2048_S8x2048 : S8x1x2048.ShapeCasts S8x2048
  shapeCasts_S1x1_S_ : S1x1.ShapeCasts S_
  bcast_S_S8x2048 : S_.BroadcastsInDim S8x2048 (![] : Fin 0 → Fin S8x2048.rank)
  shapeCasts_S1x1x1_S_ : S1x1x1.ShapeCasts S_
  dot_S8x16x2048_S8x16x2048_S8x2048x2048_1_1_2_2_0_0_wf : DotDims.WF S8x16x2048 S8x16x2048 S8x2048x2048 [1] [1] [2] [2] [0] [0]

variable [Facts₀]

def dot_S8x16x2048_S8x16x2048_S8x2048x2048_1_1_2_2_0_0 : DotDims S8x16x2048 S8x16x2048 S8x2048x2048 where
  lhsContracting := [1]
  rhsContracting := [1]
  lhsNonContracting := [2]
  rhsNonContracting := [2]
  lhsBatch := [0]
  rhsBatch := [0]
  wf := dot_S8x16x2048_S8x16x2048_S8x2048x2048_1_1_2_2_0_0_wf

class Facts : Prop extends Facts₀ where

variable [Facts]
-- ==== Proof.Affinity.lean ====
/-
  The pairwise affinity of a batch of point clouds, as ONE function of the arrays it is computed from, in the two
  arrangements the two programs use, and the law that makes them one function on the extended reals.

  For a batch b and points i, j, with e the features [8, 16, 2048], s b n the squared norm of point n, p b n its momentum
  power and c a scalar weight:
    tiled   b i j = exp ( ((s b i + s b j) − ∑ f, (e b f i · 2) · e b f j) · max (c · p b i) (c · p b j) )
    direct  b i j = exp ( c · ( ((s b i + s b j) − 2 · ∑ f, e b f i · e b f j) · min (p b i) (p b j) ) ).
  The factor 2 comes out of the sum because multiplying by a nonnegative real distributes over every sum of extended
  reals; for c = −(β · β), which is never positive, x ↦ c · x reverses the order, so the larger of c · p b i and
  c · p b j is c times the smaller of p b i and p b j; the rest is associativity and commutativity of the product.
  Nothing here needs an entry to be finite.
-/
import Idealize.ShloMosaic.PureOps.Ideal
import Idealize.ShloMosaic.Lib.ValueIdx

noncomputable section

namespace Cert.Affinity

open Idealize.ShloMosaic Idealize.ShloMosaic.ValueIdx

/-- The float pattern of 2.0 denotes the real 2. -/
theorem two_eq : Ideal.ofBits .f32 0x40000000#32 = ((2 : ℝ) : EReal) := by
  simp [Ideal.ofBits, Ideal.ieee, -EReal.coe_mul]; norm_num

theorem two_nonneg : (0 : EReal) ≤ Ideal.ofBits .f32 0x40000000#32 := by
  rw [two_eq]; exact_mod_cast (by norm_num : (0 : ℝ) ≤ 2)

theorem two_ne_top : Ideal.ofBits .f32 0x40000000#32 ≠ (⊤ : EReal) := by
  rw [two_eq]; exact EReal.coe_ne_top 2

/-- A nonnegative real factor, applied to the left factor of every term of a finite sum of products, comes out of the sum. -/
theorem factor_out_of_sum {ι : Type} (t : Finset ι) (u v : ι → EReal) (a : EReal) (h0 : 0 ≤ a) (ht : a ≠ ⊤) :
    ∑ k ∈ t, (u k * a) * v k = a * ∑ k ∈ t, u k * v k := by
  classical
  induction t using Finset.induction_on with
  | empty => simp
  | insert x t hx ih =>
    rw [Finset.sum_insert hx, Finset.sum_insert hx, ih, EReal.left_distrib_of_nonneg_of_ne_top h0 ht,
      mul_comm (u x) a, mul_assoc]

/-- A square is never negative, at the infinities too. -/
theorem mul_self_nonneg (x : EReal) : 0 ≤ x * x :=
  EReal.mul_nonneg_iff.mpr ((le_total 0 x).elim (fun h => .inl ⟨h, h⟩) (fun h => .inr ⟨h, h⟩))

/-- Multiplying by −b with b nonnegative reverses the order, so it carries the smaller of two to the larger. -/
theorem max_neg_mul (b x y : EReal) (hb : 0 ≤ b) : max (-b * x) (-b * y) = -b * min x y := by
  rcases le_total x y with h | h
  · rw [min_eq_left h, max_eq_left]
    rw [EReal.neg_mul, EReal.neg_mul, EReal.neg_le_neg_iff]
    exact mul_le_mul_of_nonneg_left h hb
  · rw [min_eq_right h, max_eq_right]
    rw [EReal.neg_mul, EReal.neg_mul, EReal.neg_le_neg_iff]
    exact mul_le_mul_of_nonneg_left h hb

/-- The two arrangements at one entry. -/
theorem entry_eq (si sj pi pj β : EReal) (u v : Fin 16 → EReal) :
    Ideal.exp (((si + sj) - ∑ k : Fin 16, (u k * Ideal.ofBits .f32 0x40000000#32) * v k) * max (-(β * β) * pi) (-(β * β) * pj))
      = Ideal.exp (-(β * β) * (((si + sj) - Ideal.ofBits .f32 0x40000000#32 * ∑ k : Fin 16, u k * v k) * min pi pj)) := by
  rw [factor_out_of_sum Finset.univ u v _ two_nonneg two_ne_top, max_neg_mul _ _ _ (mul_self_nonneg β), mul_left_comm]

/-- The tiled arrangement: the factor 2 on the left feature of every product, the weight inside the maximum. -/
def tiled (e : (⟨3, ![8, 16, 2048]⟩ : Shape).Idx → EReal) (s p : (⟨2, ![8, 2048]⟩ : Shape).Idx → EReal) (c : EReal) :
    (⟨3, ![8, 2048, 2048]⟩ : Shape).Idx → EReal := fun i =>
  Ideal.exp (((s (ix2 (i 0) (i 1)) + s (ix2 (i 0) (i 2)))
      - ∑ k : Fin 16, (e (ix3 (i 0) k (i 1)) * Ideal.ofBits .f32 0x40000000#32) * e (ix3 (i 0) k (i 2)))
    * max (c * p (ix2 (i 0) (i 1))) (c * p (ix2 (i 0) (i 2))))

/-- The direct arrangement: twice the inner product, the smaller momentum power, the weight outside. -/
def direct (e : (⟨3, ![8, 16, 2048]⟩ : Shape).Idx → EReal) (s p : (⟨2, ![8, 2048]⟩ : Shape).Idx → EReal) (c : EReal) :
    (⟨3, ![8, 2048, 2048]⟩ : Shape).Idx → EReal := fun i =>
  Ideal.exp (c * (((s (ix2 (i 0) (i 1)) + s (ix2 (i 0) (i 2)))
      - Ideal.ofBits .f32 0x40000000#32 * ∑ k : Fin 16, e (ix3 (i 0) k (i 1)) * e (ix3 (i 0) k (i 2)))
    * min (p (ix2 (i 0) (i 1))) (p (ix2 (i 0) (i 2)))))

/-- With the weight −(β · β) the two arrangements are one array. -/
theorem tiled_eq_direct (e : (⟨3, ![8, 16, 2048]⟩ : Shape).Idx → EReal) (s p : (⟨2, ![8, 2048]⟩ : Shape).Idx → EReal) (β : EReal) :
    tiled e s p (-(β * β)) = direct e s p (-(β * β)) :=
  funext fun i => entry_eq _ _ _ _ β (fun k => e (ix3 (i 0) k (i 1))) (fun k => e (ix3 (i 0) k (i 2)))

end Cert.Affinity

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.Tile.lean ====
/-
  One tile of the affinity kernel, read entry by entry.

  The body receives six blocks: the doubled features of 512 row points [1, 16, 512], the features of all 2048 column
  points [1, 16, 2048], the row points' squared norms and weighted momentum powers as columns [1, 512, 1], and the
  column points' as rows [1, 1, 2048]. What it stores at row r and column j of the tile [1, 512, 2048] is
    exp ( ((n r + n' j) − ∑ f, a f r · b f j) · max (q r) (q' j) ),
  the matrix product contracting the feature axis of both operands (the left one is used transposed), the column and
  the row each repeated across the tile before the sum and before the maximum.
-/
import proofs.«102005_j68813966017012_2_alg».proof.Proof.Gen.KernelIdeal.Skeleton
import proofs.«102005_j68813966017012_2_alg».proof.Proof.LibLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left operand's index at output entry (r, j) and contraction position q: feature q, point r. -/
theorem lhs_feature (i : S512x2048.Idx) (q : dot_S16x512_S16x2048_S512x2048_0_0_1_1_n_n.contr.Idx) :
    (dot_S16x512_S16x2048_S512x2048_0_0_1_1_n_n.lhsIdx i q 0).val = (q ⟨0, by decide⟩).val :=
  dot_S16x512_S16x2048_S512x2048_0_0_1_1_n_n.lhsIdx_val_of_single rfl i q

theorem lhs_point (i : S512x2048.Idx) (q : dot_S16x512_S16x2048_S512x2048_0_0_1_1_n_n.contr.Idx) :
    (dot_S16x512_S16x2048_S512x2048_0_0_1_1_n_n.lhsIdx i q 1).val = (i 0).val := by
  unfold DotDims.lhsIdx
  rw [dif_neg (show ¬(1 : Fin S16x512.rank) ∈ dot_S16x512_S16x2048_S512x2048_0_0_1_1_n_n.lhsBatch by decide),
    dif_pos (show (1 : Fin S16x512.rank) ∈ dot_S16x512_S16x2048_S512x2048_0_0_1_1_n_n.lhsNonContracting by decide)]
  rfl

/-- The right operand's: feature q, point j. -/
theorem rhs_feature (i : S512x2048.Idx) (q : dot_S16x512_S16x2048_S512x2048_0_0_1_1_n_n.contr.Idx) :
    (dot_S16x512_S16x2048_S512x2048_0_0_1_1_n_n.rhsIdx i q 0).val = (q ⟨0, by decide⟩).val :=
  dot_S16x512_S16x2048_S512x2048_0_0_1_1_n_n.rhsIdx_val_of_single rfl i q

theorem rhs_point (i : S512x2048.Idx) (q : dot_S16x512_S16x2048_S512x2048_0_0_1_1_n_n.contr.Idx) :
    (dot_S16x512_S16x2048_S512x2048_0_0_1_1_n_n.rhsIdx i q 1).val = (i 1).val := by
  unfold DotDims.rhsIdx
  rw [dif_neg (show ¬(1 : Fin S16x2048.rank) ∈ dot_S16x512_S16x2048_S512x2048_0_0_1_1_n_n.rhsBatch by decide),
    dif_pos (show (1 : Fin S16x2048.rank) ∈ dot_S16x512_S16x2048_S512x2048_0_0_1_1_n_n.rhsNonContracting by decide)]
  rfl

/-- The matrix product into a zero accumulator, at row point r and column point j: the sum over the 16 features of the
    left operand at (f, r) times the right operand at (f, j). -/
theorem gram_apply (a : FVec Ideal S16x512 .f32) (b : FVec Ideal S16x2048 .f32) (r : Fin 512) (j : Fin 2048) :
    matmul dot_S16x512_S16x2048_S512x2048_0_0_1_1_n_n (some .fp32) a b (constant (F := Ideal) S512x2048 .f32 0x00000000#32) (ix2 r j)
      = ∑ k : Fin 16, a (ix2 k r) * b (ix2 k j) := by
  simp only [matmul]
  rw [Ideal.matmul_constant_zero_apply, ← Equiv.sum_comp (ValueIdx.contrEquiv1 dot_S16x512_S16x2048_S512x2048_0_0_1_1_n_n 16 rfl rfl).symm]
  refine Finset.sum_congr rfl fun k _ => ?_
  have hk := ValueIdx.contrEquiv1_symm_val dot_S16x512_S16x2048_S512x2048_0_0_1_1_n_n 16 rfl rfl k
  have el : dot_S16x512_S16x2048_S512x2048_0_0_1_1_n_n.lhsIdx (ix2 r j) ((ValueIdx.contrEquiv1 dot_S16x512_S16x2048_S512x2048_0_0_1_1_n_n 16 rfl rfl).symm k) = ix2 k r := funext fun x => Fin.ext (by
    match x with
    | ⟨0, _⟩ => exact (lhs_feature _ _).trans hk
    | ⟨1, _⟩ => exact lhs_point _ _)
  have er : dot_S16x512_S16x2048_S512x2048_0_0_1_1_n_n.rhsIdx (ix2 r j) ((ValueIdx.contrEquiv1 dot_S16x512_S16x2048_S512x2048_0_0_1_1_n_n 16 rfl rfl).symm k) = ix2 k j := funext fun x => Fin.ext (by
    match x with
    | ⟨0, _⟩ => exact (rhs_feature _ _).trans hk
    | ⟨1, _⟩ => exact rhs_point _ _)
  rw [el, er]

/-- What the body stores at row r, column j of its tile, from the six blocks it loaded. -/
theorem stored_apply (x0 : Vec Ideal S1x16x512 .f32) (x1 : Vec Ideal S1x16x2048 .f32) (x2 : Vec Ideal S1x512x1 .f32)
    (x3 : Vec Ideal S1x1x2048 .f32) (x4 : Vec Ideal S1x512x1 .f32) (x5 : Vec Ideal S1x1x2048 .f32) (r : Fin 512) (j : Fin 2048) :
    k0_pay1 x0 x1 x2 x3 x4 x5 (ix3 (0 : Fin 1) r j)
      = Ideal.exp (((x2 (ix3 (0 : Fin 1) r (0 : Fin 1)) + x3 (ix3 (0 : Fin 1) (0 : Fin 1) j))
          - ∑ k : Fin 16, x0 (ix3 (0 : Fin 1) k r) * x1 (ix3 (0 : Fin 1) k j))
        * max (x4 (ix3 (0 : Fin 1) r (0 : Fin 1))) (x5 (ix3 (0 : Fin 1) (0 : Fin 1) j))) := by
  unfold k0_pay1
  refine (shapeCast_ab_1ab_apply _ shapeCasts_S512x2048_S1x512x2048 (0 : Fin 1) r j).trans ?_
  have hn : broadcastTo S512x2048 (shapeCast S512x1 x2 shapeCasts_S1x512x1_S512x1) broadcasts_S512x1_S512x2048 (ix2 r j)
      = x2 (ix3 (0 : Fin 1) r (0 : Fin 1)) :=
    (Cert.LibLayout.broadcastTo_a1_ab_apply _ broadcasts_S512x1_S512x2048 r j).trans
      (shapeCast_1ab_ab_apply x2 shapeCasts_S1x512x1_S512x1 r (0 : Fin 1))
  have hn' : broadcastTo S512x2048 (shapeCast S1x2048 x3 shapeCasts_S1x1x2048_S1x2048) broadcasts_S1x2048_S512x2048 (ix2 r j)
      = x3 (ix3 (0 : Fin 1) (0 : Fin 1) j) :=
    (broadcastTo_1b_ab_apply _ broadcasts_S1x2048_S512x2048 r j).trans
      (shapeCast_1ab_ab_apply x3 shapeCasts_S1x1x2048_S1x2048 (0 : Fin 1) j)
  have hq : broadcastTo S512x2048 (shapeCast S512x1 x4 shapeCasts_S1x512x1_S512x1) broadcasts_S512x1_S512x2048 (ix2 r j)
      = x4 (ix3 (0 : Fin 1) r (0 : Fin 1)) :=
    (Cert.LibLayout.broadcastTo_a1_ab_apply _ broadcasts_S512x1_S512x2048 r j).trans
      (shapeCast_1ab_ab_apply x4 shapeCasts_S1x512x1_S512x1 r (0 : Fin 1))
  have hq' : broadcastTo S512x2048 (shapeCast S1x2048 x5 shapeCasts_S1x1x2048_S1x2048) broadcasts_S1x2048_S512x2048 (ix2 r j)
      = x5 (ix3 (0 : Fin 1) (0 : Fin 1) j) :=
    (broadcastTo_1b_ab_apply _ broadcasts_S1x2048_S512x2048 r j).trans
      (shapeCast_1ab_ab_apply x5 shapeCasts_S1x1x2048_S1x2048 (0 : Fin 1) j)
  have hg : matmul dot_S16x512_S16x2048_S512x2048_0_0_1_1_n_n (some .fp32) (shapeCast S16x512 x0 shapeCasts_S1x16x512_S16x512)
        (shapeCast S16x2048 x1 shapeCasts_S1x16x2048_S16x2048) (constant (F := Ideal) S512x2048 .f32 0x00000000#32) (ix2 r j)
      = ∑ k : Fin 16, x0 (ix3 (0 : Fin 1) k r) * x1 (ix3 (0 : Fin 1) k j) :=
    (gram_apply _ _ r j).trans (Finset.sum_congr rfl fun k _ => by
      rw [shapeCast_1ab_ab_apply x0 shapeCasts_S1x16x512_S16x512 k r, shapeCast_1ab_ab_apply x1 shapeCasts_S1x16x2048_S16x2048 k j])
  show Ideal.exp (((broadcastTo S512x2048 (shapeCast S512x1 x2 shapeCasts_S1x512x1_S512x1) broadcasts_S512x1_S512x2048 (ix2 r j)
        + broadcastTo S512x2048 (shapeCast S1x2048 x3 shapeCasts_S1x1x2048_S1x2048) broadcasts_S1x2048_S512x2048 (ix2 r j))
      - matmul dot_S16x512_S16x2048_S512x2048_0_0_1_1_n_n (some .fp32) (shapeCast S16x512 x0 shapeCasts_S1x16x512_S16x512)
        (shapeCast S16x2048 x1 shapeCasts_S1x16x2048_S16x2048) (constant (F := Ideal) S512x2048 .f32 0x00000000#32) (ix2 r j))
    * max (broadcastTo S512x2048 (shapeCast S512x1 x4 shapeCasts_S1x512x1_S512x1) broadcasts_S512x1_S512x2048 (ix2 r j))
        (broadcastTo S512x2048 (shapeCast S1x2048 x5 shapeCasts_S1x1x2048_S1x2048) broadcasts_S1x2048_S512x2048 (ix2 r j))) = _
  rw [hn, hn', hq, hq', hg]

end Cert.KernelIdeal.Tile

end
-- ==== Proof.Stages.lean ====
/-
  The arrays the affinity kernel's windows are cut from, as the region finds them: each is written by the host
  operations before the call, from the three arguments e [8, 16, 2048], α [1, 1] and β [1, 1, 1].

    doubled features   e b f n · 2                                              [8, 16, 2048]
    squared norms      norms e b n = 0 + ∑ f, e b f n · e b f n, as a column [8, 2048, 1] and as a row [8, 1, 2048]
    weighted powers    weight β · power e α b n, as a column and as a row, with
                       power e α b n = exp ((2 · α) · log (e b 4 n))  and  weight β = −(β · β).

  The squared norms, the momentum power and the weight are kept as the operations' own terms (they are never opened:
  the other program computes them by the same operations); only the last layout step of each array is read here, at
  an index written by its coordinates.
-/
import proofs.«102005_j68813966017012_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Stages

open Cert.KernelIdeal Cert.KernelIdeal.Gen Idealize.ShloMosaic Idealize.ShloMosaic.TcCoe Idealize.SL.Sem
open Idealize.ShloMosaic.StableHlo Idealize.ShloMosaic.ValueIdx

/-- The squared norm of every point: the sum over the feature axis of the squares, from zero. -/
def norms (e : FVec Ideal S8x16x2048 .f32) : FVec Ideal S8x2048 .f32 :=
  Host.reduceAdd (F := Ideal) (mulf e e) (constant (F := Ideal) S_ .f32 0x00000000#32) reducesTo_S8x16x2048_S8x2048_d1 h_S_

/-- The momentum power of every point: exp ((2 · α) · log (feature 4)). -/
def power (e : FVec Ideal S8x16x2048 .f32) (a : FVec Ideal S1x1 .f32) : FVec Ideal S8x2048 .f32 :=
  Host.exp (F := Ideal) (mulf (broadcastInDim S8x2048 ![] bcast_S_S8x2048
      (mulf (constant (F := Ideal) S_ .f32 0x40000000#32) (shapeCast S_ a shapeCasts_S1x1_S_)))
    (Host.log (F := Ideal) (shapeCast S8x2048 (extractStridedSlice S8x1x2048 ![0, 4, 0] e slices_S8x16x2048_S8x1x2048_0_4_0) shapeCasts_S8x1x2048_S8x2048)))

/-- The weight: minus the square of β. -/
def weight (b : FVec Ideal S1x1x1 .f32) : FVec Ideal S_ .f32 :=
  Host.negf (F := Ideal) (mulf (shapeCast S_ b shapeCasts_S1x1x1_S_) (shapeCast S_ b shapeCasts_S1x1x1_S_))

/-- The weight is minus a square. -/
theorem weight_apply (b : FVec Ideal S1x1x1 .f32) :
    weight b ix0 = -(shapeCast S_ b shapeCasts_S1x1x1_S_ ix0 * shapeCast S_ b shapeCasts_S1x1x1_S_ ix0) := rfl

/-! ## The layout steps at an index -/

/-- An [8, 2048] array laid as the column [8, 2048, 1]. -/
theorem column_apply (x : FVec Ideal S8x2048 .f32) (k : S8x2048x1.Idx) :
    broadcastInDim S8x2048x1 ![0, 1] bcast_S8x2048_S8x2048x1_0_1 x k = x (ix2 (k 0) (k 1)) :=
  broadcastInDim_apply _ bcast_S8x2048_S8x2048x1_0_1 x k (ix2 (k 0) (k 1)) (fun a => match a with
    | ⟨0, _⟩ => by show (k 0).val = if (8 : Nat) = 1 then 0 else (k 0).val; rw [if_neg (by decide)]
    | ⟨1, _⟩ => by show (k 1).val = if (2048 : Nat) = 1 then 0 else (k 1).val; rw [if_neg (by decide)])

/-- An [8, 2048] array laid as the row [8, 1, 2048]. -/
theorem row_apply (x : FVec Ideal S8x2048 .f32) (k : S8x1x2048.Idx) :
    broadcastInDim S8x1x2048 ![0, 2] bcast_S8x2048_S8x1x2048_0_2 x k = x (ix2 (k 0) (k 2)) :=
  broadcastInDim_apply _ bcast_S8x2048_S8x1x2048_0_2 x k (ix2 (k 0) (k 2)) (fun a => match a with
    | ⟨0, _⟩ => by show (k 0).val = if (8 : Nat) = 1 then 0 else (k 0).val; rw [if_neg (by decide)]
    | ⟨1, _⟩ => by show (k 2).val = if (2048 : Nat) = 1 then 0 else (k 2).val; rw [if_neg (by decide)])

/-- A scalar repeated over [8, 2048]. -/
theorem splat2_apply (x : FVec Ideal S_ .f32) (k : S8x2048.Idx) :
    broadcastInDim S8x2048 ![] bcast_S_S8x2048 x k = x ix0 :=
  broadcastInDim_apply _ bcast_S_S8x2048 x k ix0 (fun a => a.elim0)

/-- A scalar repeated over [8, 16, 2048]. -/
theorem splat3_apply (x : FVec Ideal S_ .f32) (k : S8x16x2048.Idx) :
    broadcastInDim S8x16x2048 ![] bcast_S_S8x16x2048 x k = x ix0 :=
  broadcastInDim_apply _ bcast_S_S8x16x2048 x k ix0 (fun a => a.elim0)

/-! ## The arrays as the region finds them, as terms of the arguments -/

variable (m : (ℓ : Loc nD τ sig) → Buf (Elt Ideal) ℓ)

/-- The three arguments on core c, as launched. -/
abbrev feats (c : Dev nD) : FVec Ideal S8x16x2048 .f32 := m ((c : Thread nD τ).loc main_arg0)
abbrev alpha (c : Dev nD) : FVec Ideal S1x1 .f32 := m ((c : Thread nD τ).loc main_arg1)
abbrev beta (c : Dev nD) : FVec Ideal S1x1x1 .f32 := m ((c : Thread nD τ).loc main_arg2)

theorem features_eq (c : Dev nD) : @Eq (FVec Ideal S8x16x2048 .f32) (V m c main_arg0) (feats m c) := V_main_arg0 m c

theorem doubled_eq (c : Dev nD) : @Eq (FVec Ideal S8x16x2048 .f32) (V m c main_v16)
    (mulf (feats m c) (broadcastInDim S8x16x2048 ![] bcast_S_S8x16x2048 (constant (F := Ideal) S_ .f32 0x40000000#32))) := by
  dsimp only [Gen.V, Gen.hostOps0]; after_results; try rfl

theorem normsColumn_eq (c : Dev nD) : @Eq (FVec Ideal S8x2048x1 .f32) (V m c main_v17)
    (broadcastInDim S8x2048x1 ![0, 1] bcast_S8x2048_S8x2048x1_0_1 (norms (feats m c))) := by
  dsimp only [Gen.V, Gen.hostOps0]; after_results; try rfl

theorem normsRow_eq (c : Dev nD) : @Eq (FVec Ideal S8x1x2048 .f32) (V m c main_v18)
    (broadcastInDim S8x1x2048 ![0, 2] bcast_S8x2048_S8x1x2048_0_2 (norms (feats m c))) := by
  dsimp only [Gen.V, Gen.hostOps0]; after_results; try rfl

theorem powersColumn_eq (c : Dev nD) : @Eq (FVec Ideal S8x2048x1 .f32) (V m c main_v19)
    (broadcastInDim S8x2048x1 ![0, 1] bcast_S8x2048_S8x2048x1_0_1
      (mulf (broadcastInDim S8x2048 ![] bcast_S_S8x2048 (weight (beta m c))) (power (feats m c) (alpha m c)))) := by
  dsimp only [Gen.V, Gen.hostOps0]; after_results; try rfl

theorem powersRow_eq (c : Dev nD) : @Eq (FVec Ideal S8x1x2048 .f32) (V m c main_v20)
    (broadcastInDim S8x1x2048 ![0, 2] bcast_S8x2048_S8x1x2048_0_2
      (mulf (broadcastInDim S8x2048 ![] bcast_S_S8x2048 (weight (beta m c))) (power (feats m c) (alpha m c)))) := by
  dsimp only [Gen.V, Gen.hostOps0]; after_results; try rfl

/-! ## The same, at an index K of the array, matched by coordinates with an index I of the result [8, 2048, 2048]

  I = (b, i, j) names a batch, a row point and a column point. -/

/-- The doubled features at (b, k, i). -/
theorem doubled_at (c : Dev nD) (K : S8x16x2048.Idx) (I : S8x2048x2048.Idx) (k : Fin 16)
    (h0 : (K 0).val = (I 0).val) (h1 : (K 1).val = k.val) (h2 : (K 2).val = (I 1).val) :
    (show FVec Ideal S8x16x2048 .f32 from V m c main_v16) K = feats m c (ix3 (I 0) k (I 1)) * Ideal.ofBits .f32 0x40000000#32 := by
  show (show FVec Ideal S8x16x2048 .f32 from V m c main_v16) K = _
  rw [show (show FVec Ideal S8x16x2048 .f32 from V m c main_v16) = _ from doubled_eq m c]
  show feats m c K * broadcastInDim S8x16x2048 ![] bcast_S_S8x16x2048 (constant (F := Ideal) S_ .f32 0x40000000#32) K = _
  rw [splat3_apply]
  refine congrArg (· * _) (congrArg (feats m c) (funext fun a => Fin.ext ?_))
  match a with
  | ⟨0, _⟩ => exact h0
  | ⟨1, _⟩ => exact h1
  | ⟨2, _⟩ => exact h2

/-- The features at (b, k, j). -/
theorem features_at (c : Dev nD) (K : S8x16x2048.Idx) (I : S8x2048x2048.Idx) (k : Fin 16)
    (h0 : (K 0).val = (I 0).val) (h1 : (K 1).val = k.val) (h2 : (K 2).val = (I 2).val) :
    (show FVec Ideal S8x16x2048 .f32 from V m c main_arg0) K = feats m c (ix3 (I 0) k (I 2)) := by
  rw [show (show FVec Ideal S8x16x2048 .f32 from V m c main_arg0) = _ from features_eq m c]
  refine congrArg (feats m c) (funext fun a => Fin.ext ?_)
  match a with
  | ⟨0, _⟩ => exact h0
  | ⟨1, _⟩ => exact h1
  | ⟨2, _⟩ => exact h2

/-- The squared norm of the row point, from the column array. -/
theorem normsColumn_at (c : Dev nD) (K : S8x2048x1.Idx) (I : S8x2048x2048.Idx)
    (h0 : (K 0).val = (I 0).val) (h1 : (K 1).val = (I 1).val) :
    (show FVec Ideal S8x2048x1 .f32 from V m c main_v17) K = norms (feats m c) (ix2 (I 0) (I 1)) := by
  rw [show (show FVec Ideal S8x2048x1 .f32 from V m c main_v17) = _ from normsColumn_eq m c, column_apply]
  refine congrArg (norms (feats m c)) (funext fun a => Fin.ext ?_)
  match a with
  | ⟨0, _⟩ => exact h0
  | ⟨1, _⟩ => exact h1

/-- The squared norm of the column point, from the row array. -/
theorem normsRow_at (c : Dev nD) (K : S8x1x2048.Idx) (I : S8x2048x2048.Idx)
    (h0 : (K 0).val = (I 0).val) (h2 : (K 2).val = (I 2).val) :
    (show FVec Ideal S8x1x2048 .f32 from V m c main_v18) K = norms (feats m c) (ix2 (I 0) (I 2)) := by
  rw [show (show FVec Ideal S8x1x2048 .f32 from V m c main_v18) = _ from normsRow_eq m c, row_apply]
  refine congrArg (norms (feats m c)) (funext fun a => Fin.ext ?_)
  match a with
  | ⟨0, _⟩ => exact h0
  | ⟨1, _⟩ => exact h2

/-- The weighted power of the row point, from the column array. -/
theorem powersColumn_at (c : Dev nD) (K : S8x2048x1.Idx) (I : S8x2048x2048.Idx)
    (h0 : (K 0).val = (I 0).val) (h1 : (K 1).val = (I 1).val) :
    (show FVec Ideal S8x2048x1 .f32 from V m c main_v19) K
      = weight (beta m c) ix0 * power (feats m c) (alpha m c) (ix2 (I 0) (I 1)) := by
  rw [show (show FVec Ideal S8x2048x1 .f32 from V m c main_v19) = _ from powersColumn_eq m c, column_apply]
  show broadcastInDim S8x2048 ![] bcast_S_S8x2048 (weight (beta m c)) (ix2 (K 0) (K 1)) * power (feats m c) (alpha m c) (ix2 (K 0) (K 1)) = _
  rw [splat2_apply]
  refine congrArg (_ * ·) (congrArg (power (feats m c) (alpha m c)) (funext fun a => Fin.ext ?_))
  match a with
  | ⟨0, _⟩ => exact h0
  | ⟨1, _⟩ => exact h1

/-- The weighted power of the column point, from the row array. -/
theorem powersRow_at (c : Dev nD) (K : S8x1x2048.Idx) (I : S8x2048x2048.Idx)
    (h0 : (K 0).val = (I 0).val) (h2 : (K 2).val = (I 2).val) :
    (show FVec Ideal S8x1x2048 .f32 from V m c main_v20) K
      = weight (beta m c) ix0 * power (feats m c) (alpha m c) (ix2 (I 0) (I 2)) := by
  rw [show (show FVec Ideal S8x1x2048 .f32 from V m c main_v20) = _ from powersRow_eq m c, row_apply]
  show broadcastInDim S8x2048 ![] bcast_S_S8x2048 (weight (beta m c)) (ix2 (K 0) (K 2)) * power (feats m c) (alpha m c) (ix2 (K 0) (K 2)) = _
  rw [splat2_apply]
  refine congrArg (_ * ·) (congrArg (power (feats m c) (alpha m c)) (funext fun a => Fin.ext ?_))
  match a with
  | ⟨0, _⟩ => exact h0
  | ⟨1, _⟩ => exact h2

end Cert.KernelIdeal.Stages

end
-- ==== Proof.Whole.lean ====
/-
  The affinity kernel's result array, whole.

  The grid has 8 × 4 points: point (b, i) computes rows 512·i … 512·i + 511 of batch b, all 2048 columns. At that point
  the six input blocks are: the doubled features of the tile's row points (batch b, all features, points 512·i …), the
  features of every point of batch b, the squared norms and weighted powers of the row points (a column) and of every
  point of batch b (a row). So entry (r, j) of what the point writes back is the tiled affinity at (b, 512·i + r, j),
  and since the 32 blocks cover the array [8, 2048, 2048], the array after the run is the tiled affinity of the
  arguments.
-/
import proofs.«102005_j68813966017012_2_alg».proof.Proof.Gen.KernelIdeal.Value
import proofs.«102005_j68813966017012_2_alg».proof.Proof.Tile
import proofs.«102005_j68813966017012_2_alg».proof.Proof.Stages
import proofs.«102005_j68813966017012_2_alg».proof.Proof.Affinity
import Idealize.ShloMosaic.Lib.Pipeline.Value

set_option maxRecDepth 16384

noncomputable section

namespace Cert.KernelIdeal.Whole

open Cert.KernelIdeal Cert.KernelIdeal.Gen Cert.KernelIdeal.Stages Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- The tiled affinity of the three arguments on core c. -/
def result (c : Dev nD) : FVec Ideal S8x2048x2048 .f32 :=
  Cert.Affinity.tiled (feats m c) (norms (feats m c)) (power (feats m c) (alpha m c)) (weight (beta m c) ix0)

/-- Where each window's block sits at a point, against the result's block (b, i, 0): decided over the 32 points. -/
theorem index_facts : ∀ t : Fin cfg0.N,
    win0_0.index t (0 : Fin 3) = win0_6.index t (0 : Fin 3) ∧ win0_0.index t (1 : Fin 3) = 0 ∧ win0_0.index t (2 : Fin 3) = win0_6.index t (1 : Fin 3)
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = win0_6.index t (1 : Fin 3) ∧ win0_2.index t (2 : Fin 3) = 0
    ∧ win0_3.index t (0 : Fin 3) = win0_6.index t (0 : Fin 3) ∧ win0_3.index t (1 : Fin 3) = 0 ∧ win0_3.index t (2 : Fin 3) = 0
    ∧ win0_4.index t (0 : Fin 3) = win0_6.index t (0 : Fin 3) ∧ win0_4.index t (1 : Fin 3) = win0_6.index t (1 : Fin 3) ∧ win0_4.index t (2 : Fin 3) = 0
    ∧ win0_5.index t (0 : Fin 3) = win0_6.index t (0 : Fin 3) ∧ win0_5.index t (1 : Fin 3) = 0 ∧ win0_5.index t (2 : Fin 3) = 0
    ∧ win0_6.index t (2 : Fin 3) = 0 :=
  (by decide +kernel : ∀ t : Fin grid0.N, _)

/-- Every block (b, i, 0) of the result is some point's. -/
theorem index_onto : ∀ (q0 : Fin 8) (q1 : Fin 4), ∃ t : Fin cfg0.N, win0_6.index t = ![q0.val, q1.val, 0] :=
  (by decide +kernel : ∀ (q0 : Fin 8) (q1 : Fin 4), ∃ t : Fin grid0.N, win0_6.index t = ![q0.val, q1.val, 0])

/-- The tile's entry (r, j) with each block entry it reads given a name. -/
theorem stored_of_eq (x0 : Vec Ideal S1x16x512 .f32) (x1 : Vec Ideal S1x16x2048 .f32) (x2 : Vec Ideal S1x512x1 .f32)
    (x3 : Vec Ideal S1x1x2048 .f32) (x4 : Vec Ideal S1x512x1 .f32) (x5 : Vec Ideal S1x1x2048 .f32) (r : Fin 512) (j : Fin 2048)
    (u v : Fin 16 → EReal) (n n' q q' : EReal)
    (hu : ∀ k : Fin 16, x0 (ix3 (0 : Fin 1) k r) = u k) (hv : ∀ k : Fin 16, x1 (ix3 (0 : Fin 1) k j) = v k)
    (hn : x2 (ix3 (0 : Fin 1) r (0 : Fin 1)) = n) (hn' : x3 (ix3 (0 : Fin 1) (0 : Fin 1) j) = n')
    (hq : x4 (ix3 (0 : Fin 1) r (0 : Fin 1)) = q) (hq' : x5 (ix3 (0 : Fin 1) (0 : Fin 1) j) = q') :
    k0_pay1 x0 x1 x2 x3 x4 x5 (ix3 (0 : Fin 1) r j) = Ideal.exp (((n + n') - ∑ k : Fin 16, u k * v k) * max q q') := by
  rw [Tile.stored_apply, hn, hn', hq, hq', Finset.sum_congr rfl fun k _ => by rw [hu k, hv k]]

/-- What point t writes back is block t of the tiled affinity. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero zero_offsets]
  simp only [View.ld_unit_zero (S := S1x16x512) zero_offsets, View.ld_unit_zero (S := S1x16x2048) zero_offsets,
    View.ld_unit_zero (S := S1x512x1) zero_offsets, View.ld_unit_zero (S := S1x1x2048) zero_offsets]
  obtain ⟨a00, a01, a02, a10, a11, a12, a20, a21, a22, a30, a31, a32, a40, a41, a42, a50, a51, a52, a62⟩ := index_facts t
  funext y
  obtain ⟨u, r, j, rfl⟩ : ∃ (u : Fin 1) (r : Fin 512) (j : Fin 2048), y = ix3 u r j := ⟨y 0, y 1, y 2, eq_ix3 y⟩
  obtain rfl : u = 0 := Subsingleton.elim _ _
  show k0_pay1 (iblk m c 0 t) (iblk m c 1 t) (iblk m c 2 t) (iblk m c 3 t) (iblk m c 4 t) (iblk m c 5 t) (ix3 (0 : Fin 1) r j)
      = result m c (((cfg0.win 6).blk t).view.emb (ix3 (0 : Fin 1) r j))
  refine (stored_of_eq _ _ _ _ _ _ r j
    (fun k => feats m c (ix3 ((((cfg0.win 6).blk t).view.emb (ix3 (0 : Fin 1) r j)) 0) k ((((cfg0.win 6).blk t).view.emb (ix3 (0 : Fin 1) r j)) 1)) * Ideal.ofBits .f32 0x40000000#32)
    (fun k => feats m c (ix3 ((((cfg0.win 6).blk t).view.emb (ix3 (0 : Fin 1) r j)) 0) k ((((cfg0.win 6).blk t).view.emb (ix3 (0 : Fin 1) r j)) 2)))
    (norms (feats m c) (ix2 ((((cfg0.win 6).blk t).view.emb (ix3 (0 : Fin 1) r j)) 0) ((((cfg0.win 6).blk t).view.emb (ix3 (0 : Fin 1) r j)) 1)))
    (norms (feats m c) (ix2 ((((cfg0.win 6).blk t).view.emb (ix3 (0 : Fin 1) r j)) 0) ((((cfg0.win 6).blk t).view.emb (ix3 (0 : Fin 1) r j)) 2)))
    (weight (beta m c) ix0 * power (feats m c) (alpha m c) (ix2 ((((cfg0.win 6).blk t).view.emb (ix3 (0 : Fin 1) r j)) 0) ((((cfg0.win 6).blk t).view.emb (ix3 (0 : Fin 1) r j)) 1)))
    (weight (beta m c) ix0 * power (feats m c) (alpha m c) (ix2 ((((cfg0.win 6).blk t).view.emb (ix3 (0 : Fin 1) r j)) 0) ((((cfg0.win 6).blk t).view.emb (ix3 (0 : Fin 1) r j)) 2)))
    (fun k => ?_) (fun k => ?_) ?_ ?_ ?_ ?_).trans ?_
  · refine doubled_at m c (((cfg0.win 0).blk t).view.emb (ix3 (0 : Fin 1) k r)) _ k ?_ ?_ ?_
    · show win0_0.index t (0 : Fin 3) * 1 + 1 * 0 = win0_6.index t (0 : Fin 3) * 1 + 1 * 0; omega
    · show win0_0.index t (1 : Fin 3) * 16 + 1 * k.val = k.val; omega
    · show win0_0.index t (2 : Fin 3) * 512 + 1 * r.val = win0_6.index t (1 : Fin 3) * 512 + 1 * r.val; omega
  · refine features_at m c (((cfg0.win 1).blk t).view.emb (ix3 (0 : Fin 1) k j)) _ k ?_ ?_ ?_
    · show win0_1.index t (0 : Fin 3) * 1 + 1 * 0 = win0_6.index t (0 : Fin 3) * 1 + 1 * 0; omega
    · show win0_1.index t (1 : Fin 3) * 16 + 1 * k.val = k.val; omega
    · show win0_1.index t (2 : Fin 3) * 2048 + 1 * j.val = win0_6.index t (2 : Fin 3) * 2048 + 1 * j.val; omega
  · refine normsColumn_at m c (((cfg0.win 2).blk t).view.emb (ix3 (0 : Fin 1) r (0 : Fin 1))) _ ?_ ?_
    · show win0_2.index t (0 : Fin 3) * 1 + 1 * 0 = win0_6.index t (0 : Fin 3) * 1 + 1 * 0; omega
    · show win0_2.index t (1 : Fin 3) * 512 + 1 * r.val = win0_6.index t (1 : Fin 3) * 512 + 1 * r.val; omega
  · refine normsRow_at m c (((cfg0.win 3).blk t).view.emb (ix3 (0 : Fin 1) (0 : Fin 1) j)) _ ?_ ?_
    · show win0_3.index t (0 : Fin 3) * 1 + 1 * 0 = win0_6.index t (0 : Fin 3) * 1 + 1 * 0; omega
    · show win0_3.index t (2 : Fin 3) * 2048 + 1 * j.val = win0_6.index t (2 : Fin 3) * 2048 + 1 * j.val; omega
  · refine powersColumn_at m c (((cfg0.win 4).blk t).view.emb (ix3 (0 : Fin 1) r (0 : Fin 1))) _ ?_ ?_
    · show win0_4.index t (0 : Fin 3) * 1 + 1 * 0 = win0_6.index t (0 : Fin 3) * 1 + 1 * 0; omega
    · show win0_4.index t (1 : Fin 3) * 512 + 1 * r.val = win0_6.index t (1 : Fin 3) * 512 + 1 * r.val; omega
  · refine powersRow_at m c (((cfg0.win 5).blk t).view.emb (ix3 (0 : Fin 1) (0 : Fin 1) j)) _ ?_ ?_
    · show win0_5.index t (0 : Fin 3) * 1 + 1 * 0 = win0_6.index t (0 : Fin 3) * 1 + 1 * 0; omega
    · show win0_5.index t (2 : Fin 3) * 2048 + 1 * j.val = win0_6.index t (2 : Fin 3) * 2048 + 1 * j.val; omega
  · rfl

/-- An index of the result is in point t's block iff each coordinate is in the block's range on its axis. -/
theorem mem_block (t : Fin cfg0.N) (i : S8x2048x2048.Idx) :
    i ∈ ((cfg0.win 6).blk t).view.set ↔ ∀ a : Fin 3, win0_6.index t a * S1x512x2048.size a ≤ (i a).val ∧ (i a).val < win0_6.index t a * S1x512x2048.size a + S1x512x2048.size a := by
  show i ∈ ((View.whole main_v21).slice (win0_6.rect t)).set ↔ _
  rw [View.set_slice_whole, Rect.mem_set_unit]
  exact Iff.rfl

/-- Every index of the result is in some point's block: batch (i 0), row tile (i 1) / 512. -/
theorem covered (i : S8x2048x2048.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 2048 := (i 2).isLt
  obtain ⟨t, ht⟩ := index_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 2048 ≤ (i 2).val ∧ (i 2).val < win0_6.index t (2 : Fin 3) * 2048 + 2048; omega

/-- The result array after the run is the tiled affinity of the arguments. -/
theorem final (c : Dev nD) : (dats m 0 c).arrAt 6 cfg0.N = result m c :=
  (dats m 0 c).arrAt_eq_of_cover 6 (result m c) (fun t _ => flushed_eq m c t) covered

/-- The kernel's run re-posted: the result at the tiled affinity, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.Direct.lean ====
/-
  The reference program's result is the direct arrangement of the affinity.

  Its last stage, read back one operation at a time: the exponential of the weight (a scalar repeated over the result)
  times the squared distance — the column of squared norms plus the row of squared norms, minus twice the batched inner
  product over the 16 features — times the smaller of the two points' momentum powers. The squared norms, the momentum
  power and the weight stay the stages they are.
-/
import proofs.«102005_j68813966017012_2_alg».proof.Proof.Gen.ReferenceIdeal.Read
import proofs.«102005_j68813966017012_2_alg».proof.Proof.Affinity

noncomputable section

namespace Cert.ReferenceIdeal.Direct

open Cert.ReferenceIdeal Cert.ReferenceIdeal.Gen Cert.ReferenceIdeal.Read Idealize.ShloMosaic Idealize.ShloMosaic.ValueIdx

theorem result_eq (e : (⟨S8x16x2048, .f32⟩ : BufTy).Contents (Elt Ideal)) (a : (⟨S1x1, .f32⟩ : BufTy).Contents (Elt Ideal))
    (b : (⟨S1x1x1, .f32⟩ : BufTy).Contents (Elt Ideal)) :
    val_main_v30 (F := Ideal) e a b
      = Cert.Affinity.direct e (val_main_v1 (F := Ideal) e) (val_main_v18 (F := Ideal) e a) (val_main_v27 (F := Ideal) b ix0) := by
  funext i
  obtain ⟨g, p, q, rfl⟩ : ∃ (g : Fin 8) (p : Fin 2048) (q : Fin 2048), i = ix3 g p q := ⟨i 0, i 1, i 2, eq_ix3 i⟩
  have hcol : idx_main_v3 (idx_main_v5 (ix3 g p q)) = ix2 g p :=
    funext fun x => Fin.ext (by match x with | ⟨0, _⟩ => rfl | ⟨1, _⟩ => rfl)
  have hrow : idx_main_v4 (idx_main_v6 (ix3 g p q)) = ix2 g q :=
    funext fun x => Fin.ext (by match x with | ⟨0, _⟩ => rfl | ⟨1, _⟩ => rfl)
  have hl : ∀ k : Fin 16, lidx_main_v2 (ix3 g p q) k = ix3 g k p := fun k =>
    funext fun x => Fin.ext (by match x with | ⟨0, _⟩ => rfl | ⟨1, _⟩ => rfl | ⟨2, _⟩ => rfl)
  have hr : ∀ k : Fin 16, ridx_main_v2 (ix3 g p q) k = ix3 g k q := fun k =>
    funext fun x => Fin.ext (by match x with | ⟨0, _⟩ => rfl | ⟨1, _⟩ => rfl | ⟨2, _⟩ => rfl)
  have hpc : idx_main_v19 (idx_main_v21 (ix3 g p q)) = ix2 g p :=
    funext fun x => Fin.ext (by match x with | ⟨0, _⟩ => rfl | ⟨1, _⟩ => rfl)
  have hpr : idx_main_v20 (idx_main_v22 (ix3 g p q)) = ix2 g q :=
    funext fun x => Fin.ext (by match x with | ⟨0, _⟩ => rfl | ⟨1, _⟩ => rfl)
  rw [val_main_v30_apply, val_main_v29_apply, val_main_v28_apply, val_main_v24_apply, val_main_v10_apply, val_main_v7_apply,
    val_main_v5_apply, val_main_v3_apply, val_main_v6_apply, val_main_v4_apply, val_main_v9_apply, val_main_v8_apply,
    val_main_cst_0_apply, val_main_v2_apply, val_main_v23_apply, val_main_v21_apply, val_main_v19_apply,
    val_main_v22_apply, val_main_v20_apply]
  simp only [hcol, hrow, hl, hr, hpc, hpr]
  rfl

end Cert.ReferenceIdeal.Direct

end
-- ==== Proof.lean ====
/-
  The certificate of the pairwise affinity kernel against its reference.

  Both programs compute, for a batch b and points i, j of a cloud of 2048 points with 16 features,
    w b i j = exp ( −β² · |e_i − e_j|² · min (p_i, p_j) ),   |e_i − e_j|² = n_i + n_j − 2 ⟨e_i, e_j⟩,   p_n = exp (2α · log e_{4,n}).
  The reference forms it directly. The kernel receives the features already doubled, the squared norms n and the
  products q = −β² · p, and forms exp ((n_i + n_j − ⟨2 e_i, e_j⟩) · max (q_i, q_j)) tile by tile.

  The three frames are the generated ones (the reference's is its generated run with the result dropped). The ideal
  pass rewrote nothing, so there is nothing to preserve. For the values: the kernel's result array is the tiled
  arrangement of the arguments (Whole), the reference's result is the direct arrangement (Direct), the squared norms,
  the momentum power and the weight −β · β are the same operations of the same arguments in both, and the two
  arrangements are one array on the extended reals (Affinity): the factor 2 leaves the sum, and multiplying by a weight
  that is never positive turns the smaller momentum power into the larger product.
-/
import proofs.«102005_j68813966017012_2_alg».proof.Defs
import proofs.«102005_j68813966017012_2_alg».proof.Proof.Gen.Kernel
import proofs.«102005_j68813966017012_2_alg».proof.Proof.Gen.Kernel.Frame
import proofs.«102005_j68813966017012_2_alg».proof.Proof.Gen.KernelIdeal
import proofs.«102005_j68813966017012_2_alg».proof.Proof.Gen.KernelIdeal.Frame
import proofs.«102005_j68813966017012_2_alg».proof.Proof.Gen.KernelIdeal.Value
import proofs.«102005_j68813966017012_2_alg».proof.Proof.Gen.ReferenceIdeal
import proofs.«102005_j68813966017012_2_alg».proof.Proof.Gen.ReferenceIdeal.Run
import proofs.«102005_j68813966017012_2_alg».proof.Proof.Gen.ReferenceIdeal.Read
import proofs.«102005_j68813966017012_2_alg».proof.Proof.Gen.Pre_finite_inputs
import proofs.«102005_j68813966017012_2_alg».proof.Proof.Affinity
import proofs.«102005_j68813966017012_2_alg».proof.Proof.Whole
import proofs.«102005_j68813966017012_2_alg».proof.Proof.Direct
import Idealize.ShloMosaic.Adequacy
import Idealize.ShloMosaic.Init

noncomputable section

namespace Cert.Proof

open Idealize.ShloMosaic Idealize.ShloMosaic.TcCoe Idealize.SL.Sem Idealize.ShloMosaic.ValueIdx

/-- The two programs' shared stages are the same operations of the same arguments, and the weight is minus a square:
    so the reference's direct arrangement is the kernel's tiled one. -/
theorem arrangements_agree (e : FVec Ideal Cert.KernelIdeal.S8x16x2048 .f32) (a : FVec Ideal Cert.KernelIdeal.S1x1 .f32)
    (b : FVec Ideal Cert.KernelIdeal.S1x1x1 .f32) :
    Cert.Affinity.direct e (Cert.ReferenceIdeal.Read.val_main_v1 (F := Ideal) e) (Cert.ReferenceIdeal.Read.val_main_v18 (F := Ideal) e a)
        (Cert.ReferenceIdeal.Read.val_main_v27 (F := Ideal) b ix0)
      = Cert.Affinity.tiled e (Cert.KernelIdeal.Stages.norms e) (Cert.KernelIdeal.Stages.power e a) (Cert.KernelIdeal.Stages.weight b ix0) := by
  have hs : Cert.ReferenceIdeal.Read.val_main_v1 (F := Ideal) e = Cert.KernelIdeal.Stages.norms e := rfl
  have hp : Cert.ReferenceIdeal.Read.val_main_v18 (F := Ideal) e a = Cert.KernelIdeal.Stages.power e a := rfl
  have hc : Cert.ReferenceIdeal.Read.val_main_v27 (F := Ideal) b ix0 = Cert.KernelIdeal.Stages.weight b ix0 := rfl
  rw [hs, hp, hc, Cert.KernelIdeal.Stages.weight_apply]
  exact (Cert.Affinity.tiled_eq_direct e _ _ _).symm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the tiled affinity of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.Direct.result_eq, (hagree c).1, (hagree c).2.1, (hagree c).2.2]
  exact arrangements_agree _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
